-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x4 : Shape := ⟨3, ![2048, 128, 4]⟩
abbrev S2048x128 : Shape := ⟨2, ![2048, 128]⟩
abbrev S225x64 : Shape := ⟨2, ![225, 64]⟩
abbrev S_ : Shape := ⟨0, ![]⟩

class Facts : Prop where
  bcast_S_S2048x128x4 : S_.BroadcastsInDim S2048x128x4 (![] : Fin 0 → Fin S2048x128x4.rank)
  reducesTo_S2048x128x4_S_d0_1_2 : S2048x128x4.ReducesTo [0, 1, 2] S_
  h_S_ : 0 < S_.numel
  bcast_S_S225x64 : S_.BroadcastsInDim S225x64 (![] : Fin 0 → Fin S225x64.rank)
  reducesTo_S225x64_S_d0_1 : S225x64.ReducesTo [0, 1] S_

variable [Facts]

def fn {F : FTy → Type} [FloatOps F] (main_arg0 : FVec F S2048x128x4 .f32) (main_arg1 : IVec S2048x128 32) (main_arg2 : FVec F S225x64 .f32) : IVec S_ 1 :=
  let main_v0 : FVec F S2048x128x4 .f32 := Host.absf main_arg0
  let main_cst : FVec F S_ .f32 := constant S_ .f32 0x7F800000#32
  let main_v1 : FVec F S2048x128x4 .f32 := broadcastInDim S2048x128x4 ![] bcast_S_S2048x128x4 main_cst
  let main_v2 : IVec S2048x128x4 1 := cmpf .olt main_v0 main_v1
  let main_c : IVec S_ 1 := constantI S_ 1 1#1
  let main_v3 : IVec S_ 1 := (fun x v => Host.reduce IntOp.andi x v reducesTo_S2048x128x4_S_d0_1_2 h_S_) main_v2 main_c
  let main_v4 : FVec F S225x64 .f32 := Host.absf main_arg2
  let main_cst_0 : FVec F S_ .f32 := constant S_ .f32 0x7F800000#32
  let main_v5 : FVec F S225x64 .f32 := broadcastInDim S225x64 ![] bcast_S_S225x64 main_cst_0
  let main_v6 : IVec S225x64 1 := cmpf .olt main_v4 main_v5
  let main_c_1 : IVec S_ 1 := constantI S_ 1 1#1
  let main_v7 : IVec S_ 1 := (fun x v => Host.reduce IntOp.andi x v reducesTo_S225x64_S_d0_1 h_S_) main_v6 main_c_1
  let main_v8 : IVec S_ 1 := andi main_v3 main_v7
  main_v8
-- ==== Kernel.lean ====
abbrev S2048x128x4 : Shape := ⟨3, ![2048, 128, 4]⟩
abbrev S2048x128 : Shape := ⟨2, ![2048, 128]⟩
abbrev S225x64 : Shape := ⟨2, ![225, 64]⟩
abbrev S262144x4 : Shape := ⟨2, ![262144, 4]⟩
abbrev S262144x1 : Shape := ⟨2, ![262144, 1]⟩
abbrev S262144x256 : Shape := ⟨2, ![262144, 256]⟩
abbrev S2048x4 : Shape := ⟨2, ![2048, 4]⟩
abbrev S2048x1 : Shape := ⟨2, ![2048, 1]⟩
abbrev S2048x256 : Shape := ⟨2, ![2048, 256]⟩
abbrev S1x225 : Shape := ⟨2, ![1, 225]⟩
abbrev S2048x225 : Shape := ⟨2, ![2048, 225]⟩
abbrev S2048x64 : Shape := ⟨2, ![2048, 64]⟩

abbrev nBuf : Space → Nat
  | .hbm => 7
  | .vmem => 7
  | .smem => 0
  | _ => 0

abbrev bufTy : (tb : Table) → Fin (tcTables nBuf tb) → BufTy
  | .hbm, ⟨0, _⟩ => ⟨S2048x128x4, .f32⟩
  | .hbm, ⟨1, _⟩ => ⟨S2048x128, .i32⟩
  | .hbm, ⟨2, _⟩ => ⟨S225x64, .f32⟩
  | .hbm, ⟨3, _⟩ => ⟨S262144x4, .f32⟩
  | .hbm, ⟨4, _⟩ => ⟨S262144x1, .i32⟩
  | .hbm, ⟨5, _⟩ => ⟨S225x64, .bf16⟩
  | .hbm, ⟨6, _⟩ => ⟨S262144x256, .f32⟩
  | .local _ .vmem, ⟨0, _⟩ => ⟨S2048x4, .f32⟩
  | .local _ .vmem, ⟨1, _⟩ => ⟨S2048x4, .f32⟩
  | .local _ .vmem, ⟨2, _⟩ => ⟨S2048x1, .i32⟩
  | .local _ .vmem, ⟨3, _⟩ => ⟨S2048x1, .i32⟩
  | .local _ .vmem, ⟨4, _⟩ => ⟨S225x64, .bf16⟩
  | .local _ .vmem, ⟨5, _⟩ => ⟨S2048x256, .f32⟩
  | .local _ .vmem, ⟨6, _⟩ => ⟨S2048x256, .f32⟩
  | _, _ => ⟨S2048x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S225x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x128x4_S262144x4 : S2048x128x4.ShapeCasts S262144x4
  shapeCasts_S2048x128_S262144x1 : S2048x128.ShapeCasts S262144x1
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  iota_S1x225_d1_w32 : S1x225.Iotas .tc 32 [1]
  inb_S225x64_S225x64_0_0 : ∀ a, (![0, 0] : Fin 2 → Nat) a + S225x64.size a ≤ S225x64.size a
  h_S225x64 : 0 < S225x64.numel
  shapeCasts_S225x64_S225x64 : S225x64.ShapeCasts S225x64
  slices_S2048x4_o0_0_S2048x1 : S2048x4.Slices ![0, 0] S2048x1
  broadcasts_S2048x1_S2048x225 : S2048x1.Broadcasts S2048x225
  broadcasts_S1x225_S2048x225 : S1x225.Broadcasts S2048x225
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  concatenates_S2048x64_S2048x64_S2048x64_S2048x64_S2048x256_d1 : Shape.Concatenates [S2048x64, S2048x64, S2048x64, S2048x64] S2048x256 1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  dot_S2048x225_S225x64_S2048x64_1_0_0_1_n_n_wf : DotDims.WF S2048x225 S225x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S262144x4.size a
  hwx0_0 : ∀ i : grid0.Coords, EltTy.bits .f32 = 32 ∨ (Rect.block (s := S262144x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S225x64.size a ≤ S225x64.size a
  hwx0_2 : ∀ i : grid0.Coords, EltTy.bits .bf16 = 32 ∨ (Rect.block (s := S225x64) S225x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S262144x256.size a
  hwx0_3 : ∀ i : grid0.Coords, EltTy.bits .f32 = 32 ∨ (Rect.block (s := S262144x256) S2048x256.size (cc0_transform_3 i) (hinb0_3 i)).WholeWords (EltTy.packing .f32)

variable [Facts₀]

def dot_S2048x225_S225x64_S2048x64_1_0_0_1_n_n : DotDims S2048x225 S225x64 S2048x64 where
  lhsContracting := [1]
  rhsContracting := [0]
  lhsNonContracting := [0]
  rhsNonContracting := [1]
  lhsBatch := []
  rhsBatch := []
  wf := dot_S2048x225_S225x64_S2048x64_1_0_0_1_n_n_wf

abbrev win0_0 : Pipeline.Window sig grid0 :=
  Pipeline.Window.ofSpec (Memref.whole main_v0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S225x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128x4 : Shape := ⟨3, ![2048, 128, 4]⟩
abbrev S2048x128 : Shape := ⟨2, ![2048, 128]⟩
abbrev S225x64 : Shape := ⟨2, ![225, 64]⟩
abbrev S_ : Shape := ⟨0, ![]⟩
abbrev S2048x128x4x1 : Shape := ⟨4, ![2048, 128, 4, 1]⟩
abbrev S2048x128x4x64 : Shape := ⟨4, ![2048, 128, 4, 64]⟩
abbrev S2048x128x256 : Shape := ⟨3, ![2048, 128, 256]⟩
abbrev S2048x128x1 : Shape := ⟨3, ![2048, 128, 1]⟩
abbrev S262144x256 : Shape := ⟨2, ![262144, 256]⟩

abbrev nBuf : Space → Nat
  | .hbm => 34
  | .vmem => 0
  | .smem => 0
  | _ => 0

abbrev bufTy : (tb : Table) → Fin (tcTables nBuf tb) → BufTy
  | .hbm, ⟨0, _⟩ => ⟨S2048x128x4, .f32⟩
  | .hbm, ⟨1, _⟩ => ⟨S2048x128, .i32⟩
  | .hbm, ⟨2, _⟩ => ⟨S225x64, .f32⟩
  | .hbm, ⟨3, _⟩ => ⟨S_, .f32⟩
  | .hbm, ⟨4, _⟩ => ⟨S2048x128x4, .f32⟩
  | .hbm, ⟨5, _⟩ => ⟨S2048x128x4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x128x4, .f32⟩
  | .hbm, ⟨10, _⟩ => ⟨S2048x128x4, .f32⟩
  | .hbm, ⟨11, _⟩ => ⟨S_, .f32⟩
  | .hbm, ⟨12, _⟩ => ⟨S2048x128x4, .f32⟩
  | .hbm, ⟨13, _⟩ => ⟨S2048x128x4, .f32⟩
  | .hbm, ⟨14, _⟩ => ⟨S2048x128x4, .i32⟩
  | .hbm, ⟨15, _⟩ => ⟨S_, .i32⟩
  | .hbm, ⟨16, _⟩ => ⟨S2048x128x4, .i32⟩
  | .hbm, ⟨17, _⟩ => ⟨S2048x128x4, .i1⟩
  | .hbm, ⟨18, _⟩ => ⟨S_, .i32⟩
  | .hbm, ⟨19, _⟩ => ⟨S2048x128x4, .i32⟩
  | .hbm, ⟨20, _⟩ => ⟨S2048x128x4, .i32⟩
  | .hbm, ⟨21, _⟩ => ⟨S2048x128x4, .i32⟩
  | .hbm, ⟨22, _⟩ => ⟨S2048x128x4x1, .i32⟩
  | .hbm, ⟨23, _⟩ => ⟨S2048x128x4x64, .f32⟩
  | .hbm, ⟨24, _⟩ => ⟨S2048x128x256, .f32⟩
  | .hbm, ⟨25, _⟩ => ⟨S_, .i32⟩
  | .hbm, ⟨26, _⟩ => ⟨S2048x128, .i32⟩
  | .hbm, ⟨27, _⟩ => ⟨S2048x128, .i1⟩
  | .hbm, ⟨28, _⟩ => ⟨S2048x128x1, .i1⟩
  | .hbm, ⟨29, _⟩ => ⟨S_, .f32⟩
  | .hbm, ⟨30, _⟩ => ⟨S2048x128x256, .i1⟩
  | .hbm, ⟨31, _⟩ => ⟨S2048x128x256, .f32⟩
  | .hbm, ⟨32, _⟩ => ⟨S2048x128x256, .f32⟩
  | .hbm, ⟨33, _⟩ => ⟨S262144x256, .f32⟩
  | _, _ => ⟨S2048x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  bcast_S_S2048x128x4 : S_.BroadcastsInDim S2048x128x4 (![] : Fin 0 → Fin S2048x128x4.rank)
  bcast_S2048x128x4_S2048x128x4x1_0_1_2 : S2048x128x4.BroadcastsInDim S2048x128x4x1 (![0, 1, 2] : Fin 3 → Fin S2048x128x4x1.rank)
  shapeCasts_S2048x128x4x64_S2048x128x256 : S2048x128x4x64.ShapeCasts S2048x128x256
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S2048x128x1_S2048x128x256_0_1_2 : S2048x128x1.BroadcastsInDim S2048x128x256 (![0, 1, 2] : Fin 3 → Fin S2048x128x256.rank)
  bcast_S_S2048x128x256 : S_.BroadcastsInDim S2048x128x256 (![] : Fin 0 → Fin S2048x128x256.rank)
  shapeCasts_S2048x128x256_S262144x256 : S2048x128x256.ShapeCasts S262144x256
  gather_S225x64_S2048x128x4x1_S2048x128x4x64_3_0_n_n_0_3_164_wf : GatherDims.WF S225x64 S2048x128x4x1 S2048x128x4x64 [3] [0] [] [0] [] 3 ![1, 64]

variable [Facts₀]

def gather_S225x64_S2048x128x4x1_S2048x128x4x64_3_0_n_n_0_3_164 : GatherDims S225x64 S2048x128x4x1 S2048x128x4x64 where
  offsetDims := [3]
  collapsedSliceDims := [0]
  operandBatchingDims := []
  startIndicesBatchingDims := []
  startIndexMap := [0]
  indexVectorDim := 3
  sliceSizes := ![1, 64]
  wf := gather_S225x64_S2048x128x4x1_S2048x128x4x64_3_0_n_n_0_3_164_wf

class Facts : Prop extends Facts₀ where

variable [Facts]
-- ==== Proof.RowWord.lean ====
/-
  The row of the positional table that a box coordinate selects, and the two laws that turn the kernel's
  arithmetic selection into the reference's indexing.

  A coordinate `x` is scaled by 224, clipped into [0, 224] and rounded toward zero: the result is a whole number
  between 0 and 224, whatever `x` is (an infinite `x` is clipped like any other), so as a 32-bit word it is the word
  of a natural number below 225, it is not negative when read signed, and it is a valid row of a table of 225 rows.

  A bit widened to a word and converted to a float is 1 or 0. Hence
    * the sum over the 225 rows `k` of  [row = k] · T k  has one term that is not a product with zero, and is `T row`
      (on the extended reals `0 · t = 0` for every `t`, also an infinite one, so no entry need be finite);
    * `e · [o = 1]` is `e` when `o = 1` and `0` otherwise: the product with a 0/1 mask is the selection against zero.
-/
import Idealize.ShloMosaic.PureOps.Ideal
import Idealize.ShloMosaic.PureOps.Ideal.Laws
import Idealize.ShloMosaic.Lib.ValueIdx

noncomputable section

open scoped BigOperators

namespace Cert.PosTable

open Idealize.ShloMosaic Idealize.ShloMosaic.ValueIdx

/-- The pattern of `224.0` denotes the real 224. -/
theorem ofBits_224 : Ideal.ofBits .f32 0x43600000#32 = ((224 : ℝ) : EReal) := by
  simp [Ideal.ofBits, Ideal.ieee, -EReal.coe_mul]; norm_num

/-- The table row a coordinate selects, as both programs compute it: `x · 224`, clipped below at 0 and above at 224,
    rounded toward zero to a 32-bit integer. -/
def rowWord (x : EReal) : BitVec 32 :=
  Ideal.fptosi 32 (min (Ideal.ofBits .f32 0x43600000#32)
    (max (Ideal.ofBits .f32 0x00000000#32) (x * Ideal.ofBits .f32 0x43600000#32)))

/-- The selected row is the word of a natural number at most 224. -/
theorem rowWord_spec (x : EReal) : ∃ n : ℕ, n ≤ 224 ∧ rowWord x = BitVec.ofNat 32 n := by
  unfold rowWord
  rw [ofBits_224, Ideal.ofBits_zero_f32]
  have h0 : (0 : EReal) ≤ min ((224 : ℝ) : EReal) (max 0 (x * ((224 : ℝ) : EReal))) :=
    le_min (by exact_mod_cast (by norm_num : (0 : ℝ) ≤ 224)) (le_max_left _ _)
  have h1 : min ((224 : ℝ) : EReal) (max 0 (x * ((224 : ℝ) : EReal))) ≤ ((224 : ℝ) : EReal) := min_le_left _ _
  generalize min ((224 : ℝ) : EReal) (max 0 (x * ((224 : ℝ) : EReal))) = y at h0 h1
  induction y using EReal.rec with
  | bot => exact absurd h0 (by simp)
  | top => exact absurd h1 (by simp)
  | coe r =>
    have hr0 : 0 ≤ r := by exact_mod_cast h0
    have hr1 : r ≤ 224 := by exact_mod_cast h1
    have hf0 : 0 ≤ ⌊r⌋ := Int.floor_nonneg.mpr hr0
    have hf1 : ⌊r⌋ < 225 := Int.floor_lt.mpr (by push_cast; linarith)
    refine ⟨⌊r⌋.toNat, by omega, ?_⟩
    unfold Ideal.fptosi
    rw [Ideal.toIntClamped_coe, if_pos hr0]
    have e : max (-((2 ^ (32 - 1) : ℕ) : ℤ)) (min (((2 ^ (32 - 1) : ℕ) : ℤ) - 1) ⌊r⌋) = ((⌊r⌋.toNat : ℕ) : ℤ) := by
      rw [Int.toNat_of_nonneg hf0]
      norm_num
      omega
    rw [e]
    exact BitVec.ofInt_natCast _ _

/-- The selected row as a row number of the table. -/
def rowFin (x : EReal) : Fin 225 :=
  ⟨(rowWord x).toNat, by
    obtain ⟨n, hn, h⟩ := rowWord_spec x
    rw [h, BitVec.toNat_ofNat]
    exact lt_of_le_of_lt (Nat.mod_le _ _) (by omega)⟩

/-- The selected row's word is the word of its row number. -/
theorem rowWord_eq_ofNat (x : EReal) : rowWord x = BitVec.ofNat 32 (rowFin x).val := by
  obtain ⟨n, hn, h⟩ := rowWord_spec x
  show rowWord x = BitVec.ofNat 32 (rowWord x).toNat
  rw [BitVec.ofNat_toNat, BitVec.setWidth_eq]

/-- Read signed, the selected row's word is its row number: it is not negative. -/
theorem rowWord_toInt (x : EReal) : (rowWord x).toInt = ((rowFin x).val : ℤ) := by
  obtain ⟨n, hn, h⟩ := rowWord_spec x
  show (rowWord x).toInt = (((rowWord x).toNat : ℕ) : ℤ)
  rw [h]
  apply BitVec.toInt_eq_toNat_of_lt
  rw [BitVec.toNat_ofNat]
  have := Nat.mod_le n (2 ^ 32)
  omega

/-- A bit, widened to a word and converted to a float: 1 for the bit 1, 0 for the bit 0. -/
def bitVal (b : BitVec 1) : EReal := (((b.setWidth 32).toInt : ℝ) : EReal)

theorem bitVal_one : bitVal 1#1 = 1 := by
  unfold bitVal
  rw [show ((1#1 : BitVec 1).setWidth 32).toInt = 1 by decide]
  norm_num

theorem bitVal_zero : bitVal 0#1 = 0 := by
  unfold bitVal
  rw [show ((0#1 : BitVec 1).setWidth 32).toInt = 0 by decide]
  norm_num

/-- The comparison of two words for equality, as a bit. -/
theorem cmpi_eq_self {w : ℕ} (a : BitVec w) : IntOp.cmpi .eq a a = 1#1 := by
  simp [IntOp.cmpi]

theorem cmpi_eq_of_ne {w : ℕ} {a b : BitVec w} (h : a ≠ b) : IntOp.cmpi .eq a b = 0#1 := by
  have hb : (a == b) = false := beq_false_of_ne h
  simp [IntOp.cmpi, hb]

/-- THE ONE-HOT SUM: weighting the 225 rows of a column by "is the selected row" and adding them up gives the selected
    row's entry. Every other term is a product with zero, which is zero on the extended reals whatever the entry. -/
theorem onehot_sum (x : EReal) (T : Fin 225 → EReal) :
    ∑ k : Fin 225, bitVal (IntOp.cmpi .eq (rowWord x) (BitVec.ofNat 32 k.val)) * T k = T (rowFin x) := by
  rw [Finset.sum_eq_single (rowFin x)]
  · rw [← rowWord_eq_ofNat, cmpi_eq_self, bitVal_one, one_mul]
  · intro k _ hk
    have hne : rowWord x ≠ BitVec.ofNat 32 k.val := by
      rw [rowWord_eq_ofNat]
      intro h
      apply hk
      have h' := congrArg BitVec.toNat h
      rw [BitVec.toNat_ofNat, BitVec.toNat_ofNat] at h'
      have h1 := (rowFin x).isLt
      have h2 := k.isLt
      refine Fin.ext ?_
      omega
    rw [cmpi_eq_of_ne hne, bitVal_zero, zero_mul]
  · intro h; exact absurd (Finset.mem_univ _) h

/-- THE MASK PRODUCT: an entry times the 0/1 value of "the word is 1" is the entry where it is and zero where it is not. -/
theorem mul_mask (e : EReal) (o : BitVec 32) :
    e * bitVal (IntOp.cmpi .eq o 1#32) = if o = 1#32 then e else 0 := by
  by_cases h : o = 1#32
  · rw [if_pos h, h, cmpi_eq_self, bitVal_one, mul_one]
  · rw [if_neg h, cmpi_eq_of_ne h, bitVal_zero, mul_zero]

/-- The selection against zero by the same bit, as the reference spells it. -/
theorem select_mask (e : EReal) (o : BitVec 32) :
    Scalar.select (IntOp.cmpi .eq o 1#32) e (Ideal.ofBits .f32 0x00000000#32) = if o = 1#32 then e else 0 := by
  by_cases h : o = 1#32
  · rw [if_pos h, h, cmpi_eq_self, select_one]
  · rw [if_neg h, cmpi_eq_of_ne h, select_zero, Ideal.ofBits_zero_f32]

end Cert.PosTable

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Payload.lean ====
/-
  What the kernel's body computes from one block, entry by entry.

  From a block of 2048 boxes (their four coordinates `x0`, their object flags `x1`) and the whole table `x2` the body
  builds, for each coordinate `c`, the 2048 × 225 matrix of zeros and ones "row `r`'s selected table row is `k`", multiplies
  it into the table, lays the four 2048 × 64 products side by side and multiplies every row by the 0/1 value of its flag.
  Entry `(r, 64 c + d)` is therefore the sum over `k` of  [selected row = k] · table (k, d), times [flag = 1]:
  by the one-hot sum and the mask product (RowWord) the table's entry at the selected row and column `d` when the
  flag is 1, and zero otherwise.
-/
import proofs.«162512_j67937792688165_1_alg».proof.Proof.Gen.KernelIdeal.Skeleton
import proofs.«162512_j67937792688165_1_alg».proof.Proof.RowWord
import proofs.«162512_j67937792688165_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.PosTable
open Cert.LibColumnBroadcast

/-- The product's dimension numbers: rows by the 225 table rows, times table rows by columns. -/
abbrev dotD : DotDims S2048x225 S225x64 S2048x64 := dot_S2048x225_S225x64_S2048x64_1_0_0_1_n_n

/-- The 225 table rows, as the product's contraction index. -/
abbrev contrRows : dotD.contr.Idx ≃ Fin 225 := contrEquiv1 dotD 225 rfl rfl

/-- At output entry `(r, d)` and table row `k` the product reads its left factor at `(r, k)` … -/
theorem lhsIdx_eq (r : Fin 2048) (d : Fin 64) (k : Fin 225) :
    dotD.lhsIdx (ix2 r d) (contrRows.symm k) = ix2 r k := by
  funext a; refine Fin.ext ?_
  match a with
  | ⟨0, _⟩ => rfl
  | ⟨1, _⟩ => exact (DotDims.lhsIdx_val_of_single dotD rfl (ix2 r d) (contrRows.symm k)).trans (contrEquiv1_symm_val dotD 225 rfl rfl k)

/-- … and its right factor at `(k, d)`. -/
theorem rhsIdx_eq (r : Fin 2048) (d : Fin 64) (k : Fin 225) :
    dotD.rhsIdx (ix2 r d) (contrRows.symm k) = ix2 k d := by
  funext a; refine Fin.ext ?_
  match a with
  | ⟨0, _⟩ => exact (DotDims.rhsIdx_val_of_single dotD rfl (ix2 r d) (contrRows.symm k)).trans (contrEquiv1_symm_val dotD 225 rfl rfl k)
  | ⟨1, _⟩ => rfl

/-- The block's selected rows: every coordinate scaled, clipped and rounded. -/
theorem rowWords (x0 : Vec Ideal S2048x4 .f32) (i : S2048x4.Idx) : k0_pay2 (F := Ideal) x0 i = rowWord (x0 i) := by
  unfold k0_pay2
  simp only [shapeCast_self]
  rfl

/-- The zero-one matrix for the coordinate in column `o` of a matrix `W` of words: entry `(r, k)` is the 0/1 value of
    "`W (r, o)` is the word of `k`". -/
theorem onehot_apply (W : IVec S2048x4 32) (o : Nat) (hs : S2048x4.Slices ![0, o] S2048x1) (r : Fin 2048) (c : Fin 4)
    (hc : c.val = o) (k : Fin 225) :
    (sitofp .f32 (extui 32 (cmpi .eq (broadcastTo S2048x225 (extractStridedSlice S2048x1 ![0, o] W hs) broadcasts_S2048x1_S2048x225)
        (broadcastTo S2048x225 (iota .tc S1x225 32 [1] iota_S1x225_d1_w32) broadcasts_S1x225_S2048x225)) natLt_1_32) :
          FVec Ideal S2048x225 .f32) (ix2 r k)
      = bitVal (IntOp.cmpi .eq (W (ix2 r c)) (BitVec.ofNat 32 k.val)) := by
  show bitVal (IntOp.cmpi .eq (broadcastTo S2048x225 (extractStridedSlice S2048x1 ![0, o] W hs) broadcasts_S2048x1_S2048x225 (ix2 r k))
      (broadcastTo S2048x225 (iota .tc S1x225 32 [1] iota_S1x225_d1_w32) broadcasts_S1x225_S2048x225 (ix2 r k))) = _
  rw [broadcastTo_a1_ab_apply, broadcastTo_1b_ab_apply, iota_single_apply,
    slice2_axis1_apply o W hs r (0 : Fin 1) c (by rw [hc]; rfl)]

/-- ONE PIECE: the zero-one matrix of column `o` times the table, at `(r, d)`, is the table at the selected row. -/
theorem piece_apply (W : IVec S2048x4 32) (o : Nat) (hs : S2048x4.Slices ![0, o] S2048x1) (T : FVec Ideal S225x64 .bf16)
    (r : Fin 2048) (c : Fin 4) (hc : c.val = o) (d : Fin 64) (x : EReal) (hW : W (ix2 r c) = rowWord x) :
    matmul dotD none (truncf .bf16 (sitofp .f32 (extui 32 (cmpi .eq
        (broadcastTo S2048x225 (extractStridedSlice S2048x1 ![0, o] W hs) broadcasts_S2048x1_S2048x225)
        (broadcastTo S2048x225 (iota .tc S1x225 32 [1] iota_S1x225_d1_w32) broadcasts_S1x225_S2048x225)) natLt_1_32))
        bitsLt_bf16_f32) T (constant S2048x64 .f32 0x00000000#32) (ix2 r d)
      = T (ix2 (rowFin x) d) := by
  simp only [matmul]
  rw [Ideal.matmul_constant_zero_apply, ← Equiv.sum_comp contrRows.symm, ← onehot_sum x (fun k => T (ix2 k d))]
  refine Finset.sum_congr rfl fun k _ => ?_
  rw [lhsIdx_eq, rhsIdx_eq, truncf_apply, onehot_apply W o hs r c hc k, hW]

/-- The flag column: entry `(r, 0)` is the 0/1 value of "row `r`'s flag is 1". -/
theorem mask_apply (x1 : Vec Ideal S2048x1 .i32) (r : Fin 2048) :
    k0_pay3 (F := Ideal) x1 (ix2 r (0 : Fin 1)) = bitVal (IntOp.cmpi .eq (x1 (ix2 r (0 : Fin 1))) 1#32) := by
  unfold k0_pay3
  simp only [shapeCast_self]
  rfl

/-- Four 2048 × 64 pieces side by side: column `64 c + d` of the whole is column `d` of piece `c`. -/
theorem pieces_apply (p0 p1 p2 p3 : FVec Ideal S2048x64 .f32) (r : Fin 2048) (c : Fin 4) (d : Fin 64) (j : Fin 256)
    (hj : j.val = 64 * c.val + d.val) :
    concatenate S2048x256 1 [⟨S2048x64, p0⟩, ⟨S2048x64, p1⟩, ⟨S2048x64, p2⟩, ⟨S2048x64, p3⟩]
        concatenates_S2048x64_S2048x64_S2048x64_S2048x64_S2048x256_d1 (ix2 r j)
      = (match c with | ⟨0, _⟩ => p0 | ⟨1, _⟩ => p1 | ⟨2, _⟩ => p2 | ⟨3, _⟩ => p3) (ix2 r d) := by
  match c, hj with
  | ⟨0, _⟩, hj =>
    exact concatenate_apply_piece 1 _ _ (ix2 r j) 0 (by show (0 : ℕ) < 4; decide) S2048x64 p0 rfl rfl 0 rfl (ix2 r d)
      (fun b hb => by match b with | ⟨0, _⟩ => rfl | ⟨1, _⟩ => exact absurd rfl hb)
      (by have hj' : j.val = 64 * 0 + d.val := hj; show 0 + d.val = j.val; omega)
  | ⟨1, _⟩, hj =>
    exact concatenate_apply_piece 1 _ _ (ix2 r j) 1 (by show (1 : ℕ) < 4; decide) S2048x64 p1 rfl rfl 64 rfl (ix2 r d)
      (fun b hb => by match b with | ⟨0, _⟩ => rfl | ⟨1, _⟩ => exact absurd rfl hb)
      (by have hj' : j.val = 64 * 1 + d.val := hj; show 64 + d.val = j.val; omega)
  | ⟨2, _⟩, hj =>
    exact concatenate_apply_piece 1 _ _ (ix2 r j) 2 (by show (2 : ℕ) < 4; decide) S2048x64 p2 rfl rfl 128 rfl (ix2 r d)
      (fun b hb => by match b with | ⟨0, _⟩ => rfl | ⟨1, _⟩ => exact absurd rfl hb)
      (by have hj' : j.val = 64 * 2 + d.val := hj; show 128 + d.val = j.val; omega)
  | ⟨3, _⟩, hj =>
    exact concatenate_apply_piece 1 _ _ (ix2 r j) 3 (by show (3 : ℕ) < 4; decide) S2048x64 p3 rfl rfl 192 rfl (ix2 r d)
      (fun b hb => by match b with | ⟨0, _⟩ => rfl | ⟨1, _⟩ => exact absurd rfl hb)
      (by have hj' : j.val = 64 * 3 + d.val := hj; show 192 + d.val = j.val; omega)

/-- THE BODY'S RESULT at entry `(r, 64 c + d)`, from the block's coordinates `x0`, flags `x1` and the table `x2`:
    the table at the row coordinate `c` of box `r` selects and column `d`, when the box's flag is 1; zero otherwise. -/
theorem payload_apply (x0 : Vec Ideal S2048x4 .f32) (x1 : Vec Ideal S2048x1 .i32) (x2 : Vec Ideal S225x64 .bf16)
    (r : Fin 2048) (c : Fin 4) (d : Fin 64) (j : Fin 256) (hj : j.val = 64 * c.val + d.val) :
    k0_pay1 (F := Ideal) (k0_pay3 x1) (k0_pay4 x2) (k0_pay5 x0 x2) (k0_pay6 x0 x2) (k0_pay7 x0 x2) (k0_pay8 x0) (ix2 r j)
      = if x1 (ix2 r (0 : Fin 1)) = 1#32 then x2 (ix2 (rowFin (x0 (ix2 r c))) d) else 0 := by
  have hT : k0_pay4 (F := Ideal) x2 = x2 := by unfold k0_pay4; exact shapeCast_self _ _
  rw [← mul_mask]
  unfold k0_pay1
  show (concatenate S2048x256 1 [⟨S2048x64, k0_pay5 x0 x2⟩, ⟨S2048x64, k0_pay6 x0 x2⟩, ⟨S2048x64, k0_pay7 x0 x2⟩,
      ⟨S2048x64, matmul dotD none (truncf .bf16 (sitofp .f32 (extui 32 (k0_pay8 x0) natLt_1_32)) bitsLt_bf16_f32) (k0_pay4 x2)
        (constant S2048x64 .f32 0x00000000#32)⟩] concatenates_S2048x64_S2048x64_S2048x64_S2048x64_S2048x256_d1 (ix2 r j))
      * (broadcastTo S2048x256 (k0_pay3 x1) broadcasts_S2048x1_S2048x256 (ix2 r j)) = _
  rw [broadcastTo_a1_ab_apply, mask_apply, pieces_apply _ _ _ _ r c d j hj]
  congr 1
  match c with
  | ⟨0, _⟩ =>
    show k0_pay5 (F := Ideal) x0 x2 (ix2 r d) = _
    unfold k0_pay5
    rw [hT]
    exact piece_apply (k0_pay2 x0) 0 slices_S2048x4_o0_0_S2048x1 x2 r 0 rfl d _ (rowWords x0 _)
  | ⟨1, _⟩ =>
    show k0_pay6 (F := Ideal) x0 x2 (ix2 r d) = _
    unfold k0_pay6
    rw [hT]
    exact piece_apply (k0_pay2 x0) 1 slices_S2048x4_o0_1_S2048x1 x2 r 1 rfl d _ (rowWords x0 _)
  | ⟨2, _⟩ =>
    show k0_pay7 (F := Ideal) x0 x2 (ix2 r d) = _
    unfold k0_pay7
    rw [hT]
    exact piece_apply (k0_pay2 x0) 2 slices_S2048x4_o0_2_S2048x1 x2 r 2 rfl d _ (rowWords x0 _)
  | ⟨3, _⟩ =>
    show matmul dotD none (truncf .bf16 (sitofp .f32 (extui 32 (k0_pay8 x0) natLt_1_32)) bitsLt_bf16_f32) (k0_pay4 x2)
        (constant S2048x64 .f32 0x00000000#32) (ix2 r d) = _
    unfold k0_pay8
    rw [hT]
    exact piece_apply (k0_pay2 x0) 3 slices_S2048x4_o0_3_S2048x1 x2 r 3 rfl d _ (rowWords x0 _)

end Cert.KernelIdeal.Payload

end
-- ==== Proof.Lookup.lean ====
/-
  The result of both programs, as one function of the three argument arrays.

  The output has one row per box — row `n` is box `n % 128` of image `n / 128` — and 256 columns, four pieces of 64:
  piece `c` is the row of the 225 × 64 positional table that coordinate `c` of the box selects (`rowFin`: the
  coordinate times 224, clipped to [0, 224], rounded toward zero), column `d` of the piece column `d` of that row.
  A box whose object flag is not 1 gives a row of zeros.
-/
import proofs.«162512_j67937792688165_1_alg».proof.Proof.RowWord

noncomputable section

namespace Cert.PosTable

open Idealize.ShloMosaic Idealize.ShloMosaic.ValueIdx

/-- The entry for image `b`, box `t`, coordinate `c`, table column `d`. -/
def lookupAt (bbox : (⟨3, ![2048, 128, 4]⟩ : Shape).Idx → EReal) (obj : (⟨2, ![2048, 128]⟩ : Shape).Idx → BitVec 32)
    (tbl : (⟨2, ![225, 64]⟩ : Shape).Idx → EReal) (b : Fin 2048) (t : Fin 128) (c : Fin 4) (d : Fin 64) : EReal :=
  if obj (ix2 b t) = 1#32 then tbl (ix2 (rowFin (bbox (ix3 b t c))) d) else 0

/-- The whole output array: entry `(n, j)` is the entry for image `n / 128`, box `n % 128`, coordinate `j / 64`,
    table column `j % 64`. -/
def lookup (bbox : (⟨3, ![2048, 128, 4]⟩ : Shape).Idx → EReal) (obj : (⟨2, ![2048, 128]⟩ : Shape).Idx → BitVec 32)
    (tbl : (⟨2, ![225, 64]⟩ : Shape).Idx → EReal) : (⟨2, ![262144, 256]⟩ : Shape).Idx → EReal := fun i =>
  lookupAt bbox obj tbl
    ⟨(i 0).val / 128, by have := idx2_lt0 i; omega⟩ ⟨(i 0).val % 128, Nat.mod_lt _ (by decide)⟩
    ⟨(i 1).val / 64, by have := idx2_lt1 i; omega⟩ ⟨(i 1).val % 64, Nat.mod_lt _ (by decide)⟩

/-- The entry depends on its four coordinates through their values only. -/
theorem lookupAt_congr (bbox : (⟨3, ![2048, 128, 4]⟩ : Shape).Idx → EReal) (obj : (⟨2, ![2048, 128]⟩ : Shape).Idx → BitVec 32)
    (tbl : (⟨2, ![225, 64]⟩ : Shape).Idx → EReal) {b b' : Fin 2048} {t t' : Fin 128} {c c' : Fin 4} {d d' : Fin 64}
    (hb : b.val = b'.val) (ht : t.val = t'.val) (hc : c.val = c'.val) (hd : d.val = d'.val) :
    lookupAt bbox obj tbl b t c d = lookupAt bbox obj tbl b' t' c' d' := by
  obtain rfl := Fin.ext hb
  obtain rfl := Fin.ext ht
  obtain rfl := Fin.ext hc
  obtain rfl := Fin.ext hd
  rfl

end Cert.PosTable

end
-- ==== Proof.KernelArray.lean ====
/-
  From what each grid point writes back to the kernel's whole output array.

  The kernel works on 128 blocks of 2048 boxes. Before it starts, the boxes' coordinates are laid out as a 262144 × 4 array
  (row `n` is box `n % 128` of image `n / 128`), their flags as a 262144 × 1 column, and the table is narrowed to bf16,
  which changes no value. Point `t` reads rows `2048 t … 2048 t + 2047` of the first two, the whole table, and writes
  back rows `2048 t … 2048 t + 2047` of the output. By the body's result entry by entry (Payload) what it writes is
  those rows of the lookup of the three argument arrays; the 128 blocks cover the output, so the output ends as the
  lookup.
-/
import proofs.«162512_j67937792688165_1_alg».proof.Proof.Gen.KernelIdeal.Value
import proofs.«162512_j67937792688165_1_alg».proof.Proof.Payload
import proofs.«162512_j67937792688165_1_alg».proof.Proof.Lookup
import Idealize.ShloMosaic.Lib.StableHlo.Run
import Idealize.ShloMosaic.Lib.Pipeline.Value
import Idealize.ShloMosaic.Lib.ValueIdx

set_option maxRecDepth 16384

noncomputable section

namespace Cert.KernelIdeal.WholeArray

open Cert.KernelIdeal Cert.KernelIdeal.Gen Idealize.ShloMosaic Idealize.ShloMosaic.TcCoe Idealize.SL.Sem
open Idealize.ShloMosaic.ValueIdx Cert.PosTable
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 points: the coordinates, the flags and the output move one block of
    rows per point; the table stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The coordinates as the kernel finds them: the argument reshaped to 262144 × 4. -/
theorem V_coords (c : Dev nD) : (V m c main_v0 : S262144x4.Idx → EReal)
    = shapeCast S262144x4 (m ((c : Thread nD τ).loc main_arg0)) shapeCasts_S2048x128x4_S262144x4 := by
  dsimp only [Gen.V, Gen.hostOps0]; after_results; rfl

/-- The flags as the kernel finds them: the argument reshaped to a 262144 × 1 column. -/
theorem V_flags (c : Dev nD) : (V m c main_v1 : S262144x1.Idx → BitVec 32)
    = shapeCast S262144x1 (m ((c : Thread nD τ).loc main_arg1)) shapeCasts_S2048x128_S262144x1 := by
  dsimp only [Gen.V, Gen.hostOps0]; after_results; rfl

/-- The table as the kernel finds it: the argument itself, a change of float format being the identity. -/
theorem V_table (c : Dev nD) : (V m c main_v2 : S225x64.Idx → EReal) = m ((c : Thread nD τ).loc main_arg2) := by
  dsimp only [Gen.V, Gen.hostOps0]; after_results; rfl

/-- Row `n` of the reshaped coordinates is box `n % 128` of image `n / 128`. -/
theorem coords_apply (X : S2048x128x4.Idx → EReal) (n : Fin 262144) (c : Fin 4) :
    shapeCast S262144x4 X shapeCasts_S2048x128x4_S262144x4 (ix2 n c)
      = X (ix3 (⟨n.val / 128, by have := n.isLt; omega⟩ : Fin 2048) (⟨n.val % 128, Nat.mod_lt _ (by decide)⟩ : Fin 128) c) := by
  refine shapeCast_apply X _ (ix2 n c) _ ?_
  rw [Shape.rowMajor_val_three, Shape.rowMajor_val_two]
  show (n.val / 128 * 128 + n.val % 128) * 4 + c.val = n.val * 4 + c.val
  omega

/-- Row `n` of the flag column is the flag of box `n % 128` of image `n / 128`. -/
theorem flags_apply (X : S2048x128.Idx → BitVec 32) (n : Fin 262144) :
    shapeCast S262144x1 X shapeCasts_S2048x128_S262144x1 (ix2 n (0 : Fin 1))
      = X (ix2 (⟨n.val / 128, by have := n.isLt; omega⟩ : Fin 2048) (⟨n.val % 128, Nat.mod_lt _ (by decide)⟩ : Fin 128)) := by
  refine shapeCast_apply X _ (ix2 n (0 : Fin 1)) _ ?_
  rw [Shape.rowMajor_val_two, Shape.rowMajor_val_two]
  show n.val / 128 * 128 + n.val % 128 = n.val * 1 + 0
  omega

/-- The coordinates' block at point `t` is rows `2048 t …` of the array the kernel finds. -/
theorem iblk0_apply (c : Dev nD) (t : Fin cfg0.N) (x : S2048x4.Idx) (k : S262144x4.Idx)
    (hk0 : (k 0).val = 2048 * t.val + (x 0).val) (hk1 : (k 1).val = (x 1).val) :
    (iblk m c 0 t : Vec Ideal S2048x4 .f32) x = (V m c main_v0 : S262144x4.Idx → EReal) k := by
  obtain ⟨e00, e01, -⟩ := idx_facts t
  unfold iblk
  rw [View.read_apply]
  show V m c main_v0 _ = V m c main_v0 _
  congr 1
  funext a
  apply Fin.ext
  match a with
  | ⟨0, _⟩ => show win0_0.index t 0 * 2048 + 1 * (x 0).val = (k 0).val; rw [e00, hk0]; omega
  | ⟨1, _⟩ => show win0_0.index t 1 * 4 + 1 * (x 1).val = (k 1).val; rw [e01, hk1]; omega

/-- The flags' block at point `t` is rows `2048 t …` of the column the kernel finds. -/
theorem iblk1_apply (c : Dev nD) (t : Fin cfg0.N) (x : S2048x1.Idx) (k : S262144x1.Idx)
    (hk0 : (k 0).val = 2048 * t.val + (x 0).val) (hk1 : (k 1).val = (x 1).val) :
    (iblk m c 1 t : Vec Ideal S2048x1 .i32) x = (V m c main_v1 : S262144x1.Idx → BitVec 32) k := by
  obtain ⟨-, -, e10, e11, -⟩ := idx_facts t
  unfold iblk
  rw [View.read_apply]
  show V m c main_v1 _ = V m c main_v1 _
  congr 1
  funext a
  apply Fin.ext
  match a with
  | ⟨0, _⟩ => show win0_1.index t 0 * 2048 + 1 * (x 0).val = (k 0).val; rw [e10, hk0]; omega
  | ⟨1, _⟩ => show win0_1.index t 1 * 1 + 1 * (x 1).val = (k 1).val; rw [e11, hk1]; omega

/-- The table's block at every point is the whole table the kernel finds. -/
theorem iblk2_apply (c : Dev nD) (t : Fin cfg0.N) (x : S225x64.Idx) :
    (iblk m c 2 t : Vec Ideal S225x64 .bf16) x = (V m c main_v2 : S225x64.Idx → EReal) x := by
  obtain ⟨-, -, -, -, e20, e21, -⟩ := idx_facts t
  unfold iblk
  rw [View.read_apply]
  show V m c main_v2 _ = V m c main_v2 _
  congr 1
  funext a
  apply Fin.ext
  match a with
  | ⟨0, _⟩ => show win0_2.index t 0 * 225 + 1 * (x 0).val = (x 0).val; rw [e20]; omega
  | ⟨1, _⟩ => show win0_2.index t 1 * 64 + 1 * (x 1).val = (x 1).val; rw [e21]; omega

/-- ONE POINT, over plain arrays: if the three blocks `b0 b1 b2` are rows `2048 tv …` of the reshaped coordinates and
    flags of `A0`, `A1` and the whole table `A2`, the body's result at `y` is the lookup at row `2048 tv + y 0`, column `y 1`. -/
theorem point_eq (A0 : S2048x128x4.Idx → EReal) (A1 : S2048x128.Idx → BitVec 32) (A2 : S225x64.Idx → EReal)
    (b0 : Vec Ideal S2048x4 .f32) (b1 : Vec Ideal S2048x1 .i32) (b2 : Vec Ideal S225x64 .bf16) (tv : ℕ) (htv : tv < 128)
    (h0 : ∀ (r : Fin 2048) (c : Fin 4), b0 (ix2 r c)
      = A0 (ix3 (⟨(2048 * tv + r.val) / 128, by have := r.isLt; omega⟩ : Fin 2048)
          (⟨(2048 * tv + r.val) % 128, Nat.mod_lt _ (by decide)⟩ : Fin 128) c))
    (h1 : ∀ r : Fin 2048, b1 (ix2 r (0 : Fin 1))
      = A1 (ix2 (⟨(2048 * tv + r.val) / 128, by have := r.isLt; omega⟩ : Fin 2048)
          (⟨(2048 * tv + r.val) % 128, Nat.mod_lt _ (by decide)⟩ : Fin 128)))
    (h2 : ∀ (k : Fin 225) (d : Fin 64), b2 (ix2 k d) = A2 (ix2 k d))
    (y : S2048x256.Idx) (i : S262144x256.Idx) (hi0 : (i 0).val = 2048 * tv + (y 0).val) (hi1 : (i 1).val = (y 1).val) :
    k0_pay1 (F := Ideal) (k0_pay3 b1) (k0_pay4 b2) (k0_pay5 b0 b2) (k0_pay6 b0 b2) (k0_pay7 b0 b2) (k0_pay8 b0) y
      = lookup A0 A1 A2 i := by
  obtain ⟨r, j, rfl⟩ : ∃ (r : Fin 2048) (j : Fin 256), y = ix2 r j := ⟨y 0, y 1, eq_ix2 y⟩
  have hr : r.val < 2048 := r.isLt
  have hj : j.val < 256 := j.isLt
  have hi0' : (i 0).val = 2048 * tv + r.val := hi0
  have hi1' : (i 1).val = j.val := hi1
  rw [Payload.payload_apply b0 b1 b2 r ⟨j.val / 64, by omega⟩ ⟨j.val % 64, Nat.mod_lt _ (by decide)⟩ j
    (by show j.val = 64 * (j.val / 64) + j.val % 64; omega), h1, h0, h2]
  exact lookupAt_congr A0 A1 A2 (by show (2048 * tv + r.val) / 128 = (i 0).val / 128; rw [hi0'])
    (by show (2048 * tv + r.val) % 128 = (i 0).val % 128; rw [hi0'])
    (by show j.val / 64 = (i 1).val / 64; rw [hi1']) (by show j.val % 64 = (i 1).val % 64; rw [hi1'])

/-- WHAT POINT `t` WRITES BACK is rows `2048 t … 2048 t + 2047` of the lookup of the three argument arrays. -/
theorem flushed_eq (c : Dev nD) (t : Fin cfg0.N) :
    (dats m 0 c).flushed 3 t = ((cfg0.win 3).blk t).view.read (Elt Ideal)
      (lookup (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S2048x4) hz, View.ld_unit_zero (S := S2048x1) hz, View.ld_unit_zero (S := S225x64) hz]
  obtain ⟨-, -, -, -, -, -, e30, e31⟩ := idx_facts t
  have ht : t.val < 128 := lt_of_lt_of_eq t.isLt (N_0 : cfg0.N = 128)
  funext y
  rw [View.read_apply]
  refine point_eq (m ((c : Thread nD τ).loc main_arg0)) (m ((c : Thread nD τ).loc main_arg1)) (m ((c : Thread nD τ).loc main_arg2))
    (iblk m c 0 t) (iblk m c 1 t) (iblk m c 2 t) t.val ht ?_ ?_ ?_ y _ ?_ ?_
  · intro r cc
    rw [iblk0_apply m c t (ix2 r cc) (ix2 (⟨2048 * t.val + r.val, by have := r.isLt; omega⟩ : Fin 262144) cc) rfl rfl,
      V_coords, coords_apply]
  · intro r
    rw [iblk1_apply m c t (ix2 r (0 : Fin 1)) (ix2 (⟨2048 * t.val + r.val, by have := r.isLt; omega⟩ : Fin 262144) (0 : Fin 1)) rfl rfl,
      V_flags, flags_apply]
  · intro k d
    rw [iblk2_apply, V_table]
  · show win0_3.index t 0 * 2048 + 1 * (y 0).val = 2048 * t.val + (y 0).val; rw [e30]; omega
  · show win0_3.index t 1 * 256 + 1 * (y 1).val = (y 1).val; rw [e31]; omega

/-- An index of the output is in point `t`'s block iff each coordinate is in the block's range on its axis. -/
theorem mem_blk (t : Fin cfg0.N) (i : S262144x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v3).slice (win0_3.rect t)).set ↔ _
  rw [View.set_slice_whole, Rect.mem_set_unit]
  exact Iff.rfl

/-- THE OUTPUT ARRAY after the run is the lookup of the three argument arrays: the 128 blocks of 2048 rows cover it. -/
theorem final (c : Dev nD) : (dats m 0 c).arrAt 3 cfg0.N
    = lookup (m ((c : Thread nD τ).loc main_arg0)) (m ((c : Thread nD τ).loc main_arg1)) (m ((c : Thread nD τ).loc main_arg2)) :=
  (dats m 0 c).arrAt_eq_of_cover 3 _ (fun t _ => flushed_eq m c t) fun i => by
    have h0 : (i 0).val < 262144 := idx2_lt0 i
    have h1 : (i 1).val < 256 := idx2_lt1 i
    have hN : cfg0.N = 128 := N_0
    refine ⟨⟨(i 0).val / 2048, by rw [hN]; omega⟩, flush0_3 _, ?_⟩
    obtain ⟨-, -, -, -, -, -, e30, e31⟩ := idx_facts ⟨(i 0).val / 2048, by rw [hN]; omega⟩
    rw [mem_blk]
    intro a
    match a with
    | ⟨0, _⟩ =>
      show win0_3.index _ 0 * 2048 ≤ (i 0).val ∧ (i 0).val < win0_3.index _ 0 * 2048 + 2048
      rw [e30]
      show (i 0).val / 2048 * 2048 ≤ (i 0).val ∧ (i 0).val < (i 0).val / 2048 * 2048 + 2048
      omega
    | ⟨1, _⟩ =>
      show win0_3.index _ 1 * 256 ≤ (i 1).val ∧ (i 1).val < win0_3.index _ 1 * 256 + 256
      rw [e31]
      omega

/-- THE KERNEL'S RUN, read: it terminates with the output array at the lookup of its arguments, the arguments unchanged. -/
theorem run : θ_run defs (onTc (τ := τ) (main (F := Ideal))) ⟨m, fun _ => 0, ρ⟩ fun r => ∀ c : Dev nD,
      r.2.mem ((c : Thread nD τ).loc main_v3)
        = lookup (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.WholeArray

end
-- ==== Proof.LibGatherRows.lean ====
/-
  Rows of a table taken at a rank-3 array of row numbers.

  What `T[idx]` of a table `T : [N, D]` at an integer array `idx : [A, B, C]` lowers to: a gather over the row numbers
  as `[A, B, C, 1]`, the row axis collapsed, the column axis an offset axis of full width. The result at
  `(a, b, c, d)` is the table at row `idx (a, b, c, 0)` — read as a signed integer and brought into `[0, N − 1]`, as a
  gather brings every start index into range — and column `d`.
-/
import Idealize.ShloMosaic.Lib.ValueIdx

noncomputable section

namespace Cert.LibGatherRows

open Idealize.ShloMosaic Idealize.ShloMosaic.ValueIdx

variable {α : Type}

/-- The dimension numbers of `T[idx]` for a table `[N, D]`, row numbers `[A, B, C, 1]` and a result `[A, B, C, D]`; their
    conditions `wf` are decided on a program's literal shapes. -/
abbrev rowsDims (N D A B C : Nat)
    (wf : GatherDims.WF ⟨2, ![N, D]⟩ ⟨4, ![A, B, C, 1]⟩ ⟨4, ![A, B, C, D]⟩ [3] [0] [] [0] [] 3 ![1, D]) :
    GatherDims ⟨2, ![N, D]⟩ ⟨4, ![A, B, C, 1]⟩ ⟨4, ![A, B, C, D]⟩ where
  offsetDims := [3]
  collapsedSliceDims := [0]
  operandBatchingDims := []
  startIndicesBatchingDims := []
  startIndexMap := [0]
  indexVectorDim := 3
  sliceSizes := ![1, D]
  wf := wf

/-- THE GATHER READ AT `(a, b, c, d)`: the table at the row number `idx (a, b, c, 0)`, read signed and brought into
    `[0, N − 1]`, and at column `d`. -/
theorem gather_rows_apply {N D A B C w : Nat} (hN : 0 < N)
    (wf : GatherDims.WF ⟨2, ![N, D]⟩ ⟨4, ![A, B, C, 1]⟩ ⟨4, ![A, B, C, D]⟩ [3] [0] [] [0] [] 3 ![1, D])
    (x : (⟨2, ![N, D]⟩ : Shape).Idx → α) (idx : IVec ⟨4, ![A, B, C, 1]⟩ w) (a : Fin A) (b : Fin B) (c : Fin C) (d : Fin D) :
    Host.gather (rowsDims N D A B C wf) x idx (ix4 a b c d)
      = x (ix2 ⟨min (idx (ix4 a b c (0 : Fin 1))).toInt.toNat (N - 1), by omega⟩ d) := by
  unfold Host.gather
  congr 1
  funext ax
  refine Fin.ext ?_
  show (rowsDims N D A B C wf).start (ix4 a b c d) idx ax + (rowsDims N D A B C wf).batchCoord (ix4 a b c d) ax
    + (rowsDims N D A B C wf).offCoord (ix4 a b c d) ax = _
  rw [GatherDims.batchCoord_eq_zero _ _ _ List.not_mem_nil]
  have hax : ax = (0 : Fin 2) ∨ ax = (1 : Fin 2) := by
    rcases ax with ⟨v, hv⟩
    have hv' : v < 2 := hv
    rcases (by omega : v = 0 ∨ v = 1) with rfl | rfl
    · exact Or.inl rfl
    · exact Or.inr rfl
  rcases hax with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D A B C wf).startIndexMap from List.mem_singleton.mpr rfl)]
    have hsi : (rowsDims N D A B C wf).siIdx (ix4 a b c d) ⟨List.idxOf (0 : Fin 2) (rowsDims N D A B C wf).startIndexMap,
        List.idxOf_lt_length_iff.2 (List.mem_singleton.mpr rfl)⟩ = ix4 a b c (0 : Fin 1) := by
      funext e; refine Fin.ext ?_
      match e with
      | ⟨0, _⟩ => rfl
      | ⟨1, _⟩ => rfl
      | ⟨2, _⟩ => rfl
      | ⟨3, _⟩ => rfl
    rw [hsi]
    rfl
  · have hs : (rowsDims N D A B C wf).start (ix4 a b c d) idx (1 : Fin 2) = 0 := by
      unfold GatherDims.start
      rw [dif_neg (show (1 : Fin 2) ∉ ([0] : List (Fin 2)) by decide)]
    have hk : (1 : Fin 2) ∈ (rowsDims N D A B C wf).sKept :=
      (GatherDims.mem_sKept _ _).mpr ⟨(show (1 : Fin 2) ∉ ([0] : List (Fin 2)) by decide), List.not_mem_nil⟩
    rw [hs]
    unfold GatherDims.offCoord
    rw [dif_pos hk]
    simp only [Nat.zero_add, Nat.add_zero]
    rfl

end Cert.LibGatherRows

end
-- ==== Proof.Reference.lean ====
/-
  The reference computes the lookup.

  The reference selects each coordinate's table row exactly as the kernel does (the same scaling, clipping and rounding),
  wraps negative row numbers around the table — none is negative, so this changes nothing —, takes the table's rows at
  the row numbers — each already lies in the table, so bringing it into range changes nothing —, lays a box's four rows
  of 64 side by side as one row of 256, and replaces by zero the rows of boxes whose flag is not 1. Read entry by entry,
  through its two reshapes, that is the lookup.
-/
import proofs.«162512_j67937792688165_1_alg».proof.Proof.Gen.ReferenceIdeal.Read
import proofs.«162512_j67937792688165_1_alg».proof.Proof.Lookup
import proofs.«162512_j67937792688165_1_alg».proof.Proof.LibGatherRows

noncomputable section

namespace Cert.ReferenceIdeal.Lookup

open Cert.ReferenceIdeal Cert.ReferenceIdeal.Gen Cert.ReferenceIdeal.Read Idealize.ShloMosaic Idealize.ShloMosaic.ValueIdx
open Cert.PosTable Cert.LibGatherRows

/-- The reference's row numbers are the selected rows. -/
theorem rowWords (x0 : FVec Ideal S2048x128x4 .f32) (j : S2048x128x4.Idx) :
    val_main_v3 (F := Ideal) x0 j = rowWord (x0 j) := by
  rw [val_main_v3_apply, val_main_v2_apply, val_main_call0_v4_apply, val_main_call0_v3_apply, val_main_cst_1_apply,
    val_main_call0_v2_apply, val_main_call0_v1_apply, val_main_call0_v0_apply, val_main_cst_0_apply, val_main_v1_apply,
    val_main_v0_apply, val_main_cst_apply]
  rfl

/-- A selected row is not negative: wrapping negative row numbers around the table leaves it as it is. -/
theorem wrap_rowWord (x : EReal) :
    Scalar.select (IntOp.cmpi .slt (rowWord x) 0#32) (IntOp.addi (rowWord x) 225#32) (rowWord x) = rowWord x := by
  have h : IntOp.cmpi .slt (rowWord x) 0#32 = 0#1 := by
    have ht := rowWord_toInt x
    have hn : ¬ (((rowFin x).val : ℤ) < 0) := by omega
    simp [IntOp.cmpi, BitVec.slt, ht, hn]
  rw [h, select_zero]

/-- The wrapped row numbers are the selected rows. -/
theorem wrapped (x0 : FVec Ideal S2048x128x4 .f32) (j : S2048x128x4.Idx) :
    val_main_v8 (F := Ideal) x0 j = rowWord (x0 j) := by
  rw [val_main_v8_apply, val_main_v5_apply, val_main_v7_apply, val_main_v4_apply, val_main_c_apply, val_main_v6_apply,
    val_main_c_2_apply, rowWords]
  exact wrap_rowWord _

/-- A selected row lies in the table: bringing it into the table's range leaves it as it is. -/
theorem clamp_rowWord (x : EReal) : min (rowWord x).toInt.toNat (225 - 1) = (rowFin x).val := by
  rw [rowWord_toInt, Int.toNat_natCast]
  have := (rowFin x).isLt
  omega

/-- THE ROWS TAKEN: at `(a, b, c, d)` the table at the row coordinate `c` of box `(a, b)` selects, column `d`. -/
theorem gathered (x0 : FVec Ideal S2048x128x4 .f32) (x2 : FVec Ideal S225x64 .f32)
    (a : Fin 2048) (b : Fin 128) (c : Fin 4) (d : Fin 64) :
    val_main_v10 (F := Ideal) x0 x2 (ix4 a b c d) = x2 (ix2 (rowFin (x0 (ix3 a b c))) d) := by
  unfold val_main_v10
  refine (gather_rows_apply (N := 225) (D := 64) (A := 2048) (B := 128) (C := 4) (by decide)
    gather_S225x64_S2048x128x4x1_S2048x128x4x64_3_0_n_n_0_3_164_wf x2 (val_main_v9 (F := Ideal) x0) a b c d).trans ?_
  have hi : idx_main_v9 (ix4 a b c (0 : Fin 1)) = ix3 a b c := by
    funext e
    match e with
    | ⟨0, _⟩ => rfl
    | ⟨1, _⟩ => rfl
    | ⟨2, _⟩ => rfl
  refine congrArg x2 ?_
  funext e
  match e with
  | ⟨0, _⟩ =>
    refine Fin.ext ?_
    show min (val_main_v9 (F := Ideal) x0 (ix4 a b c (0 : Fin 1))).toInt.toNat (225 - 1) = (rowFin (x0 (ix3 a b c))).val
    rw [val_main_v9_apply, hi, wrapped]
    exact clamp_rowWord _
  | ⟨1, _⟩ => rfl

/-- THE REFERENCE'S RESULT is the lookup of its three arguments. -/
theorem result_eq (x0 : FVec Ideal S2048x128x4 .f32) (x1 : IVec S2048x128 32) (x2 : FVec Ideal S225x64 .f32) :
    val_main_v16 (F := Ideal) x0 x1 x2 = lookup x0 x1 x2 := by
  funext i
  have h0 := idx2_lt0 i
  have h1 := idx2_lt1 i
  have e1 : idx_main_v14 (idx_main_call1_v0 (idx_main_v16 i))
      = ix2 (⟨(i 0).val / 128, by omega⟩ : Fin 2048) (⟨(i 0).val % 128, Nat.mod_lt _ (by decide)⟩ : Fin 128) := by
    funext e
    match e with
    | ⟨0, _⟩ => refine Fin.ext ?_; show (((i 0).val * 256 + (i 1).val) / 32768) = (i 0).val / 128; omega
    | ⟨1, _⟩ => refine Fin.ext ?_; show (((i 0).val * 256 + (i 1).val) / 256 % 128) = (i 0).val % 128; omega
  have e2 : idx_main_v11 (idx_main_v16 i)
      = ix4 (⟨(i 0).val / 128, by omega⟩ : Fin 2048) (⟨(i 0).val % 128, Nat.mod_lt _ (by decide)⟩ : Fin 128)
          (⟨(i 1).val / 64, by omega⟩ : Fin 4) (⟨(i 1).val % 64, Nat.mod_lt _ (by decide)⟩ : Fin 64) := by
    funext e
    match e with
    | ⟨0, _⟩ => refine Fin.ext ?_; show (((((i 0).val * 256 + (i 1).val) / 32768) * 128 + (((i 0).val * 256 + (i 1).val) / 256 % 128)) * 256 + (((i 0).val * 256 + (i 1).val) % 256)) / 32768 = (i 0).val / 128; omega
    | ⟨1, _⟩ => refine Fin.ext ?_; show (((((i 0).val * 256 + (i 1).val) / 32768) * 128 + (((i 0).val * 256 + (i 1).val) / 256 % 128)) * 256 + (((i 0).val * 256 + (i 1).val) % 256)) / 256 % 128 = (i 0).val % 128; omega
    | ⟨2, _⟩ => refine Fin.ext ?_; show (((((i 0).val * 256 + (i 1).val) / 32768) * 128 + (((i 0).val * 256 + (i 1).val) / 256 % 128)) * 256 + (((i 0).val * 256 + (i 1).val) % 256)) / 64 % 4 = (i 1).val / 64; omega
    | ⟨3, _⟩ => refine Fin.ext ?_; show (((((i 0).val * 256 + (i 1).val) / 32768) * 128 + (((i 0).val * 256 + (i 1).val) / 256 % 128)) * 256 + (((i 0).val * 256 + (i 1).val) % 256)) % 64 = (i 1).val % 64; omega
  rw [val_main_v16_apply, val_main_v15_apply, val_main_call1_v0_apply, val_main_v14_apply, val_main_v13_apply,
    val_main_v12_apply, val_main_c_3_apply, val_main_call1_v1_apply, val_main_cst_4_apply, val_main_v11_apply, e1, e2,
    gathered]
  exact select_mask _ _

end Cert.ReferenceIdeal.Lookup

end
-- ==== Proof.lean ====
/-
  A positional-embedding lookup, computed two ways.

  Each of 262144 boxes has four coordinates and an object flag; a 225 × 64 table holds one row per pixel position. Every
  coordinate selects a table row — the coordinate times 224, clipped to [0, 224] and rounded toward zero — and a box's
  output row is its four selected table rows side by side, or zeros when its flag is not 1.

  The reference indexes the table at the selected rows and selects against zero by the flag. The kernel, block by block
  of 2048 boxes, multiplies the zero-one matrix "box r selects row k" into the table — a sum with one term that is not a
  product with zero, so the table's entry at the selected row — and multiplies each row by the flag's 0/1 value — the
  selection against zero. On the extended reals `0 · t = 0` and `t · 0 = 0` for every `t`, so neither step needs the
  table's entries, or the coordinates, to be finite: the clipping brings even an infinite coordinate into [0, 224], the
  selected row is a whole number between 0 and 224, hence not negative and inside the table, and the reference's
  wrap-around of negative row numbers and its bringing of row numbers into range change nothing.

  Both runs end at one function of the three argument arrays (`Cert.PosTable.lookup`): the kernel's by what each grid point
  writes back and the cover of the output by the 128 blocks, the reference's by reading its operations at an index.
  The three frame claims are the generated frames and the reference's run with its result dropped; the idealization
  rewrote no operation of the kernel.
-/
import proofs.«162512_j67937792688165_1_alg».proof.Defs
import proofs.«162512_j67937792688165_1_alg».proof.Proof.Gen.Kernel
import proofs.«162512_j67937792688165_1_alg».proof.Proof.Gen.Kernel.Skeleton
import proofs.«162512_j67937792688165_1_alg».proof.Proof.Gen.Kernel.Launch
import proofs.«162512_j67937792688165_1_alg».proof.Proof.Gen.Kernel.Points
import proofs.«162512_j67937792688165_1_alg».proof.Proof.Gen.Kernel.Frame
import proofs.«162512_j67937792688165_1_alg».proof.Proof.Gen.KernelIdeal
import proofs.«162512_j67937792688165_1_alg».proof.Proof.Gen.KernelIdeal.Skeleton
import proofs.«162512_j67937792688165_1_alg».proof.Proof.Gen.KernelIdeal.Launch
import proofs.«162512_j67937792688165_1_alg».proof.Proof.Gen.KernelIdeal.Points
import proofs.«162512_j67937792688165_1_alg».proof.Proof.Gen.KernelIdeal.Frame
import proofs.«162512_j67937792688165_1_alg».proof.Proof.Gen.ReferenceIdeal
import proofs.«162512_j67937792688165_1_alg».proof.Proof.Gen.Pre_finite_inputs
import proofs.«162512_j67937792688165_1_alg».proof.Proof.Gen.KernelIdeal.Value
import proofs.«162512_j67937792688165_1_alg».proof.Proof.Gen.ReferenceIdeal.Run
import proofs.«162512_j67937792688165_1_alg».proof.Proof.Gen.ReferenceIdeal.Read
import proofs.«162512_j67937792688165_1_alg».proof.Proof.KernelArray
import proofs.«162512_j67937792688165_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From arguments that agree, the kernel's output array and the reference's result are both the lookup of the arguments. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Lookup.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
